-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x600000 32) (main_arg2 : FVec F S600000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 94
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S50000, .i32⟩
  | .hbm, ⟨12, _⟩ => ⟨S650000, .i32⟩
  | .hbm, ⟨13, _⟩ => ⟨S650000, .i32⟩
  | .hbm, ⟨14, _⟩ => ⟨S_, .f32⟩
  | .hbm, ⟨15, _⟩ => ⟨S50000, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S650000x1, .i32⟩
  | .hbm, ⟨54, _⟩ => ⟨S650000, .f32⟩
  | .hbm, ⟨55, _⟩ => ⟨S650000, .f32⟩
  | .hbm, ⟨56, _⟩ => ⟨S50000x128, .f32⟩
  | .hbm, ⟨57, _⟩ => ⟨S_, .i32⟩
  | .hbm, ⟨58, _⟩ => ⟨S650000, .i32⟩
  | .hbm, ⟨59, _⟩ => ⟨S650000, .i1⟩
  | .hbm, ⟨60, _⟩ => ⟨S_, .i32⟩
  | .hbm, ⟨61, _⟩ => ⟨S650000, .i32⟩
  | .hbm, ⟨62, _⟩ => ⟨S650000, .i32⟩
  | .hbm, ⟨63, _⟩ => ⟨S650000, .i32⟩
  | .hbm, ⟨64, _⟩ => ⟨S650000x1, .i32⟩
  | .hbm, ⟨65, _⟩ => ⟨S650000x128, .f32⟩
  | .hbm, ⟨66, _⟩ => ⟨S650000x1, .f32⟩
  | .hbm, ⟨67, _⟩ => ⟨S650000x128, .f32⟩
  | .hbm, ⟨68, _⟩ => ⟨S650000x128, .f32⟩
  | .hbm, ⟨69, _⟩ => ⟨S_, .f32⟩
  | .hbm, ⟨70, _⟩ => ⟨S50000x128, .f32⟩
  | .hbm, ⟨71, _⟩ => ⟨S650000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S650000, .i32⟩
  | .hbm, ⟨78, _⟩ => ⟨S650000, .i1⟩
  | .hbm, ⟨79, _⟩ => ⟨S_, .i32⟩
  | .hbm, ⟨80, _⟩ => ⟨S650000, .i32⟩
  | .hbm, ⟨81, _⟩ => ⟨S650000, .i32⟩
  | .hbm, ⟨82, _⟩ => ⟨S650000, .i32⟩
  | .hbm, ⟨83, _⟩ => ⟨S650000x1, .i32⟩
  | .hbm, ⟨84, _⟩ => ⟨S650000x128, .f32⟩
  | .hbm, ⟨85, _⟩ => ⟨S650000x1, .f32⟩
  | .hbm, ⟨86, _⟩ => ⟨S650000x128, .f32⟩
  | .hbm, ⟨87, _⟩ => ⟨S650000x128, .f32⟩
  | .hbm, ⟨88, _⟩ => ⟨S_, .f32⟩
  | .hbm, ⟨89, _⟩ => ⟨S50000x128, .f32⟩
  | .hbm, ⟨90, _⟩ => ⟨S650000x1, .i32⟩
  | .hbm, ⟨91, _⟩ => ⟨S50000x128, .f32⟩
  | .hbm, ⟨92, _⟩ => ⟨S1x128, .f32⟩
  | .hbm, ⟨93, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S128x128, .f32⟩
  | 4 => ⟨S128, .f32⟩
  | 5 => ⟨S128x128, .f32⟩
  | 6 => ⟨S128, .f32⟩
  | 7 => ⟨S1x600000, .i32⟩
  | 8 => ⟨S600000, .i32⟩
  | 9 => ⟨S1x600000, .i32⟩
  | 10 => ⟨S600000, .i32⟩
  | 11 => ⟨S50000, .i32⟩
  | 12 => ⟨S650000, .i32⟩
  | 13 => ⟨S650000, .i32⟩
  | 14 => ⟨S_, .f32⟩
  | 15 => ⟨S50000, .f32⟩
  | 16 => ⟨S650000, .f32⟩
  | 17 => ⟨S_, .f32⟩
  | 18 => ⟨S50000, .f32⟩
  | 19 => ⟨S650000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .i1⟩
  | 27 => ⟨S_, .f32⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S650000, .i32⟩
  | 38 => ⟨S650000, .i1⟩
  | 39 => ⟨S_, .i32⟩
  | 40 => ⟨S650000, .i32⟩
  | 41 => ⟨S650000, .i32⟩
  | 42 => ⟨S650000, .i32⟩
  | 43 => ⟨S650000x1, .i32⟩
  | 44 => ⟨S650000, .f32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S50000x128, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x128, .f32⟩
  | 66 => ⟨S650000x1, .f32⟩
  | 67 => ⟨S650000x128, .f32⟩
  | 68 => ⟨S650000x128, .f32⟩
  | 69 => ⟨S_, .f32⟩
  | 70 => ⟨S50000x128, .f32⟩
  | 71 => ⟨S650000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000, .i32⟩
  | 80 => ⟨S650000, .i32⟩
  | 81 => ⟨S650000, .i32⟩
  | 82 => ⟨S_, .f32⟩
  | 83 => ⟨S50000, .f32⟩
  | 84 => ⟨S650000, .f32⟩
  | 85 => ⟨S_, .f32⟩
  | 86 => ⟨S50000, .f32⟩
  | 87 => ⟨S650000x1, .i32⟩
  | 88 => ⟨S50000, .f32⟩
  | 89 => ⟨S_, .f32⟩
  | 90 => ⟨S50000, .f32⟩
  | 91 => ⟨S50000, .i1⟩
  | 92 => ⟨S_, .f32⟩
  | 93 => ⟨S50000, .f32⟩
  | 94 => ⟨S50000, .i1⟩
  | 95 => ⟨S_, .f32⟩
  | 96 => ⟨S_, .f32⟩
  | 97 => ⟨S50000, .f32⟩
  | 98 => ⟨S50000, .f32⟩
  | 99 => ⟨S50000, .f32⟩
  | 100 => ⟨S_, .f32⟩
  | 101 => ⟨S_, .f32⟩
  | 102 => ⟨S50000, .f32⟩
  | 103 => ⟨S50000, .f32⟩
  | 104 => ⟨S_, .i32⟩
  | 105 => ⟨S650000, .i32⟩
  | 106 => ⟨S650000, .i1⟩
  | 107 => ⟨S_, .i32⟩
  | 108 => ⟨S650000, .i32⟩
  | 109 => ⟨S650000, .i32⟩
  | 110 => ⟨S650000, .i32⟩
  | 111 => ⟨S650000x1, .i32⟩
  | 112 => ⟨S650000, .f32⟩
  | 113 => ⟨S650000, .f32⟩
  | 114 => ⟨S_, .i32⟩
  | 115 => ⟨S650000, .i32⟩
  | 116 => ⟨S650000, .i1⟩
  | 117 => ⟨S_, .i32⟩
  | 118 => ⟨S650000, .i32⟩
  | 119 => ⟨S650000, .i32⟩
  | 120 => ⟨S650000, .i32⟩
  | 121 => ⟨S650000x1, .i32⟩
  | 122 => ⟨S650000, .f32⟩
  | 123 => ⟨S650000, .f32⟩
  | 124 => ⟨S50000x128, .f32⟩
  | 125 => ⟨S_, .i32⟩
  | 126 => ⟨S650000, .i32⟩
  | 127 => ⟨S650000, .i1⟩
  | _ => ⟨S50000x128, .f32⟩

abbrev hbmTy0_1 (i : Nat) : BufTy := match i % 128 with
  | 0 => ⟨S_, .i32⟩
  | 1 => ⟨S650000, .i32⟩
  | 2 => ⟨S650000, .i32⟩
  | 3 => ⟨S650000, .i32⟩
  | 4 => ⟨S650000x1, .i32⟩
  | 5 => ⟨S650000x128, .f32⟩
  | 6 => ⟨S650000x1, .f32⟩
  | 7 => ⟨S650000x128, .f32⟩
  | 8 => ⟨S650000x128, .f32⟩
  | 9 => ⟨S_, .f32⟩
  | 10 => ⟨S50000x128, .f32⟩
  | 11 => ⟨S650000x1, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_call3_v0 : Ref sig .tc := ⟨.hbm, 96, rfl⟩
abbrev main_call3_v1 : Ref sig .tc := ⟨.hbm, 97, rfl⟩
abbrev main_v65 : Ref sig .tc := ⟨.hbm, 98, rfl⟩
abbrev main_v66 : Ref sig .tc := ⟨.hbm, 99, rfl⟩
abbrev main_cst_16 : Ref sig .tc := ⟨.hbm, 100, rfl⟩
abbrev main_call4_v0 : Ref sig .tc := ⟨.hbm, 101, rfl⟩
abbrev main_call4_v1 : Ref sig .tc := ⟨.hbm, 102, rfl⟩
abbrev main_v67 : Ref sig .tc := ⟨.hbm, 103, rfl⟩
abbrev main_c_17 : Ref sig .tc := ⟨.hbm, 104, rfl⟩
abbrev main_v68 : Ref sig .tc := ⟨.hbm, 105, rfl⟩
abbrev main_v69 : Ref sig .tc := ⟨.hbm, 106, rfl⟩
abbrev main_c_18 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_19 : Ref sig .tc := ⟨.hbm, 114, rfl⟩
abbrev main_v76 : Ref sig .tc := ⟨.hbm, 115, rfl⟩
abbrev main_v77 : Ref sig .tc := ⟨.hbm, 116, rfl⟩
abbrev main_c_20 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_21 : Ref sig .tc := ⟨.hbm, 125, rfl⟩
abbrev main_v85 : Ref sig .tc := ⟨.hbm, 126, rfl⟩
abbrev main_v86 : Ref sig .tc := ⟨.hbm, 127, rfl⟩
abbrev main_c_22 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_23 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call5_cst : Ref sig .tc := ⟨.hbm, 144, rfl⟩
abbrev main_call5_v0 : Ref sig .tc := ⟨.hbm, 145, rfl⟩
abbrev main_v101 : Ref sig .tc := ⟨.hbm, 146, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KernelRun.lean ====
/-
  The run of the whole two-layer program with its RESULT named.

  The program is eleven segments: five stretches of host operations (the graph normalisation: degrees by a
  scatter-add of the edge weights with unit self-loops, their inverse square roots, the per-edge coefficient),
  the first linear map (a pallas_call, ten row blocks), the first aggregation on the host (gather, scale,
  scatter-add), bias + ReLU (a pallas_call), the second linear map (a pallas_call), the second aggregation on the
  host, and bias + ReLU again (a pallas_call). The several-region launch theorem of the pipeline library runs such a
  list from the launch memory and ends with every unscoped buffer at the last boundary's contents; here that
  conclusion is kept whole (`run_all`), and then read at the result buffer and at the seven arguments
  (`run_result`): the result holds the last boundary's contents there, which the other modules evaluate.
-/
import proofs.«122089_j43258910605759_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final memory EVERY unscoped
    buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run read at eight buffers: the result ends at the last boundary's contents there, and each argument,
    which no host operation and no kernel writes, ends as launched. -/
theorem run_result : θ_run defs (onTc (τ := τ) (main (F := F))) ⟨m, fun _ => 0, ρ⟩ (fun r => ∀ c : Dev nD,
      r.2.mem ((c.tc : Thread nD τ).loc main_v66) = W11 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v66 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)
    (run_all m ρ)

end Cert.KernelIdeal.Whole

end
-- ==== Proof.BlockOps.lean ====
/-
  The four kernel bodies, read at one entry of the block they store, over the extended reals.

  A linear-map body stores, for a block `x` of 5000 rows and the whole 128 × 128 weight matrix `w`, the product
  computed by the matrix unit into a zero accumulator; a change of float format is the identity here, so entry
  (r, c) of what it stores is  ∑ₖ x(r, k) · w(k, c), k over the 128 contracted positions. (The second linear map first
  re-casts its block to its own shape, which changes nothing.) A bias + ReLU body stores  max (x(r, c) + b(0, c)) 0
  for a block `x` and the bias held as one row `b`.
-/
import proofs.«122089_j43258910605759_1_alg».proof.Proof.Gen.KernelIdeal.Skeleton
import Idealize.ShloMosaic.PureOps.Ideal.Laws
import Idealize.ShloMosaic.Lib.ValueIdx
import Idealize.ShloMosaic.Lib.Pipeline.Value

open scoped BigOperators

noncomputable section

namespace Cert.KernelIdeal.Blocks

open Cert.KernelIdeal Cert.KernelIdeal.Gen Idealize.ShloMosaic Idealize.ShloMosaic.TcCoe

/-! ## Indices: a row of the left operand, a column of the weights, the bias under a column -/

/-- Position `k` of the row of the entry `i`: (i₀, k). -/
abbrev inRow {A : Nat} (i : (⟨2, ![A, 128]⟩ : Shape).Idx) (k : Fin 128) : (⟨2, ![A, 128]⟩ : Shape).Idx := fun a => match a with
  | ⟨0, _⟩ => ⟨(i 0).val, (i 0).isLt⟩
  | ⟨1, _⟩ => ⟨k.val, k.isLt⟩
/-- Position `k` of the weight column of the entry `i`: (k, i₁). -/
abbrev inCol {A : Nat} (i : (⟨2, ![A, 128]⟩ : Shape).Idx) (k : Fin 128) : (⟨2, ![128, 128]⟩ : Shape).Idx := fun a => match a with
  | ⟨0, _⟩ => ⟨k.val, k.isLt⟩
  | ⟨1, _⟩ => ⟨(i 1).val, (i 1).isLt⟩
/-- The bias entry of the column of `i`, the bias held as a single row: (0, i₁). -/
abbrev biasAt {A : Nat} (i : (⟨2, ![A, 128]⟩ : Shape).Idx) : (⟨2, ![1, 128]⟩ : Shape).Idx := fun a => match a with
  | ⟨0, _⟩ => ⟨0, Nat.one_pos⟩
  | ⟨1, _⟩ => ⟨(i 1).val, (i 1).isLt⟩

/-! ## The matrix unit's product of a block -/

theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_pos (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_pos (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block with the weights into a zero accumulator, at the entry `j`: the sum over the contracted
    position of the products along row j₀ and column j₁. -/
theorem matmul_zero_at {φ₁ φ₂ : FTy} (x : FVec Ideal S5000x128 φ₁) (w : FVec Ideal S128x128 φ₂) (j : S5000x128.Idx) :
    matmul dot_S5000x128_S128x128_S5000x128_1_0_0_1_n_n none x w (constant (F := Ideal) S5000x128 .f32 0x00000000#32) j
      = ∑ k : Fin 128, x (inRow j k) * w (inCol j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = inRow j k := funext fun a => Fin.ext (by
    match a with
    | ⟨0, _⟩ => exact lhs_row _ _
    | ⟨1, _⟩ => exact (lhs_pos _ _).trans hk)
  have er : dot_S5000x128_S128x128_S5000x128_1_0_0_1_n_n.rhsIdx j ((ValueIdx.contrEquiv1 dot_S5000x128_S128x128_S5000x128_1_0_0_1_n_n 128 rfl rfl).symm k) = inCol j k := funext fun a => Fin.ext (by
    match a with
    | ⟨0, _⟩ => exact (rhs_pos _ _).trans hk
    | ⟨1, _⟩ => exact rhs_col _ _)
  rw [el, er]

/-! ## What each body stores, at an entry -/

/-- The first linear map's stored block. -/
theorem linear0_at (x : Vec Ideal S5000x128 .f32) (w : Vec Ideal S128x128 .f32) (j : S5000x128.Idx) :
    k0_pay1 (F := Ideal) x w j = ∑ k : Fin 128, x (inRow j k) * w (inCol j k) := by
  unfold k0_pay1
  exact matmul_zero_at (truncf .bf16 x bitsLt_bf16_f32) (truncf .bf16 w bitsLt_bf16_f32) j

/-- The second linear map's stored block: the same sum (its re-cast of the block is the identity). -/
theorem linear2_at (x : Vec Ideal S5000x128 .f32) (w : Vec Ideal S128x128 .f32) (j : S5000x128.Idx) :
    k2_pay1 (F := Ideal) x w j = ∑ k : Fin 128, x (inRow j k) * w (inCol j k) := by
  unfold k2_pay1
  rw [shapeCast_self]
  exact matmul_zero_at (truncf .bf16 x bitsLt_bf16_f32) (truncf .bf16 w bitsLt_bf16_f32) j

/-- A one-row vector spread over 5000 rows reads, at (r, c), its entry (0, c). -/
theorem spread_row_at (b : FVec Ideal S1x128 .f32) (j : S5000x128.Idx) :
    broadcastTo S5000x128 b broadcasts_S1x128_S5000x128 j = b (biasAt j) := by
  refine broadcastTo_apply b broadcasts_S1x128_S5000x128 j (biasAt j) fun a => ?_
  match a with
  | ⟨0, _⟩ => rfl
  | ⟨1, _⟩ => rfl

/-- The first bias + ReLU body's stored block. -/
theorem biasRelu1_at (x : Vec Ideal S5000x128 .f32) (b : Vec Ideal S1x128 .f32) (j : S5000x128.Idx) :
    k1_pay1 (F := Ideal) x b j = max (x j + b (biasAt j)) (Ideal.ofBits .f32 0x00000000#32) := by
  unfold k1_pay1
  rw [shapeCast_self, shapeCast_self]
  show max (x j + broadcastTo S5000x128 b broadcasts_S1x128_S5000x128 j) _ = _
  rw [spread_row_at]
  rfl

/-- The second bias + ReLU body's stored block. -/
theorem biasRelu3_at (x : Vec Ideal S5000x128 .f32) (b : Vec Ideal S1x128 .f32) (j : S5000x128.Idx) :
    k3_pay1 (F := Ideal) x b j = max (x j + b (biasAt j)) (Ideal.ofBits .f32 0x00000000#32) := by
  unfold k3_pay1
  rw [shapeCast_self, shapeCast_self]
  show max (x j + broadcastTo S5000x128 b broadcasts_S1x128_S5000x128 j) _ = _
  rw [spread_row_at]
  rfl

end Cert.KernelIdeal.Blocks

end
-- ==== Proof.ArrayOps.lean ====
/-
  The two whole-array operations the reference applies where the kernel program launches a pallas_call, and what
  they hold at one entry, over the extended reals.

  `dotRows x w` is the host's product of a 50000 × 128 array with a 128 × 128 weight matrix: entry (r, c) is
  ∑ₖ x(r, k) · w(k, c). `biasRelu a b` adds to every row of `a` the bias held as ONE row `b` and takes the maximum
  with zero: entry (r, c) is max (a(r, c) + b(0, c)) 0. The reference forms that one row from the bias vector by a
  broadcast, the kernel program by a reshape: for a vector these are the same array (`bias_row`).
-/
import proofs.«122089_j43258910605759_1_alg».proof.Proof.Gen.ReferenceIdeal.Read
import proofs.«122089_j43258910605759_1_alg».proof.Proof.BlockOps

open scoped BigOperators

noncomputable section

namespace Cert.KernelIdeal.Arrays

open Cert.KernelIdeal Cert.KernelIdeal.Facts₀ Cert.KernelIdeal.Blocks Idealize.ShloMosaic Idealize.ShloMosaic.TcCoe

/-- The host's product of the node features with a weight matrix. -/
abbrev dotRows (x : FVec Ideal S50000x128 .f32) (w : FVec Ideal S128x128 .f32) : FVec Ideal S50000x128 .f32 :=
  Host.dotGeneral Cert.ReferenceIdeal.dot_S50000x128_S128x128_S50000x128_1_0_0_1_n_n none x w

/-- A vector of 128 entries spread as one row, the way the reference does it. -/
abbrev rowOf (b : FVec Ideal S128 .f32) : FVec Ideal S1x128 .f32 :=
  broadcastInDim Cert.ReferenceIdeal.S1x128 ![1] Cert.ReferenceIdeal.Facts₀.bcast_S128_S1x128_1 b

/-- The host's bias + ReLU, the bias given as one row. -/
abbrev biasReluRow (a : FVec Ideal S50000x128 .f32) (b : FVec Ideal S1x128 .f32) : FVec Ideal S50000x128 .f32 :=
  maximumf (F := Ideal) (addf (F := Ideal) a (broadcastInDim Cert.ReferenceIdeal.S50000x128 ![0, 1] Cert.ReferenceIdeal.Facts₀.bcast_S1x128_S50000x128_0_1 b))
    (broadcastInDim Cert.ReferenceIdeal.S50000x128 ![] Cert.ReferenceIdeal.Facts₀.bcast_S_S50000x128 (constant (F := Ideal) S_ .f32 0x00000000#32))

/-- The host's bias + ReLU of an array and a bias vector, as the reference spells it. -/
abbrev biasRelu (a : FVec Ideal S50000x128 .f32) (b : FVec Ideal S128 .f32) : FVec Ideal S50000x128 .f32 :=
  biasReluRow a (rowOf b)

/-- Entry (r, c) of the host's product: the sum along row r of `x` and column c of `w`. -/
theorem dotRows_at (x : FVec Ideal S50000x128 .f32) (w : FVec Ideal S128x128 .f32) (i : S50000x128.Idx) :
    dotRows x w i = ∑ k : Fin 128, x (inRow i k) * w (inCol i k) := by
  refine (Cert.ReferenceIdeal.Read.val_main_v35_apply x w i).trans ?_
  refine Finset.sum_congr rfl fun k _ => ?_
  have el : Cert.ReferenceIdeal.Read.lidx_main_v35 i k = inRow i k := funext fun a => by
    match a with
    | ⟨0, _⟩ => rfl
    | ⟨1, _⟩ => rfl
  have er : Cert.ReferenceIdeal.Read.ridx_main_v35 i k = inCol i k := funext fun a => by
    match a with
    | ⟨0, _⟩ => rfl
    | ⟨1, _⟩ => rfl
  rw [el, er]

/-- Entry (r, c) of the host's bias + ReLU. -/
theorem biasReluRow_at (a : FVec Ideal S50000x128 .f32) (b : FVec Ideal S1x128 .f32) (i : S50000x128.Idx) :
    biasReluRow a b i = max (a i + b (biasAt i)) (Ideal.ofBits .f32 0x00000000#32) := by
  show max (a i + broadcastInDim Cert.ReferenceIdeal.S50000x128 ![0, 1] Cert.ReferenceIdeal.Facts₀.bcast_S1x128_S50000x128_0_1 b i)
      (broadcastInDim Cert.ReferenceIdeal.S50000x128 ![] Cert.ReferenceIdeal.Facts₀.bcast_S_S50000x128 (constant (F := Ideal) S_ .f32 0x00000000#32) i) = _
  rw [broadcastInDim_apply ![0, 1] Cert.ReferenceIdeal.Facts₀.bcast_S1x128_S50000x128_0_1 b i (biasAt i) (fun a => by
        match a with
        | ⟨0, _⟩ => rfl
        | ⟨1, _⟩ => rfl),
    broadcastInDim_apply ![] Cert.ReferenceIdeal.Facts₀.bcast_S_S50000x128 (constant (F := Ideal) S_ .f32 0x00000000#32) i ValueIdx.ix0 (fun a => a.elim0)]
  rfl

/-- A vector of 128 entries as one row: by a reshape or by a broadcast along a new leading axis, the same array. -/
theorem bias_row (b : FVec Ideal S128 .f32) :
    shapeCast S1x128 b shapeCasts_S128_S1x128 = rowOf b := by
  funext j
  have hj0 : (j 0).val = 0 := by have := (j 0).isLt; simp at this; omega
  let k : S128.Idx := fun a => match a with | ⟨0, _⟩ => ⟨(j 1).val, (j 1).isLt⟩
  refine (shapeCast_apply b shapeCasts_S128_S1x128 j k ?_).trans
    (broadcastInDim_apply ![1] Cert.ReferenceIdeal.Facts₀.bcast_S128_S1x128_1 b j k fun a => ?_).symm
  · rw [Shape.rowMajor_val_one, Shape.rowMajor_val_two]
    show (j 1).val = (j 0).val * 128 + (j 1).val
    omega
  · match a with
    | ⟨0, _⟩ => rfl

end Cert.KernelIdeal.Arrays

end
-- ==== Proof.Linear0.lean ====
/-
  The first linear map as ONE array.

  The pallas_call walks ten blocks of 5000 rows. At point `t` it fetches rows 5000·t … 5000·t + 4999 of its left
  operand and the whole weight matrix, and writes back a block whose entry (r, c) is ∑ₖ x(5000·t + r, k) · w(k, c).
  That is row 5000·t + r, column c of the host's product of the two whole arrays, so each written block is the
  corresponding block of that product; the ten blocks tile the 50000 rows (row `i` lies in block `i / 5000`), so
  the output array ends as the whole product, whatever contents `V` the region is entered from.
-/
import proofs.«122089_j43258910605759_1_alg».proof.Proof.Gen.KernelIdeal.Frame
import proofs.«122089_j43258910605759_1_alg».proof.Proof.ArrayOps

set_option maxRecDepth 16384

open scoped BigOperators

noncomputable section

namespace Cert.KernelIdeal.Linear0

open Cert.KernelIdeal Cert.KernelIdeal.Gen Cert.KernelIdeal.Blocks Cert.KernelIdeal.Arrays
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's and the output's blocks move together down the rows,
    point `t` at block row `t`; the weights' block stays at the origin. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem block_of_row : ∀ q : Fin 10, ∃ t : Fin cfg0.N, win0_2.index t = ![q.val, 0] :=
  (by decide +kernel : ∀ q : Fin 10, ∃ t : Fin grid0.N, win0_2.index t = ![q.val, 0])

/-- What point `t` writes back is block `t` of the whole product. -/
theorem flushed_eq (c : Dev nD) (t : Fin cfg0.N) :
    (dat0 V c).flushed 2 t = ((cfg0.win 2).blk t).view.read (Elt Ideal) (dotRows (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := blocks_at t
  funext j
  show k0_pay1 (iblk0 V c 0 t) (iblk0 V c 1 t) j = dotRows (V c main_arg0) (V c main_arg3) (((cfg0.win 2).blk t).view.emb j)
  refine (linear0_at (iblk0 V c 0 t) (iblk0 V c 1 t) j).trans ?_
  refine Eq.trans ?_ (dotRows_at (V c main_arg0) (V c main_arg3) (((cfg0.win 2).blk t).view.emb j)).symm
  refine Finset.sum_congr rfl fun k _ => ?_
  have hx : ((cfg0.win 0).blk t).view.emb (inRow j k) = inRow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : ((cfg0.win 1).blk t).view.emb (inCol j k) = inCol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have hl : iblk0 V c 0 t (inRow j k) = V c main_arg0 (inRow (((cfg0.win 2).blk t).view.emb j) k) := by
    show V c main_arg0 (((cfg0.win 0).blk t).view.emb (inRow j k)) = _
    rw [hx]
  have hr : iblk0 V c 1 t (inCol j k) = V c main_arg3 (inCol (((cfg0.win 2).blk t).view.emb j) k) := by
    show V c main_arg3 (((cfg0.win 1).blk t).view.emb (inCol j k)) = _
    rw [hw]
  rw [hl, hr]

/-- An entry of the output array lies in point `t`'s block iff each coordinate lies in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- The ten blocks tile the array: row `i` is in the block of point `i / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_of_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the pallas_call: the whole product of the two arrays the region found. -/
theorem whole (c : Dev nD) : (dat0 V c).arrAt 2 cfg0.N = dotRows (V c main_arg0) (V c main_arg3) :=
  (dat0 V c).arrAt_eq_of_cover 2 (dotRows (V c main_arg0) (V c main_arg3)) (fun t _ => flushed_eq V c t) covered

end Cert.KernelIdeal.Linear0

end
-- ==== Proof.BiasRelu1.lean ====
/-
  The first bias + ReLU as ONE array.

  The pallas_call walks ten blocks of 5000 rows. At point `t` it fetches rows 5000·t … 5000·t + 4999 of the
  aggregated features and the bias, held as one row of 128 entries, and writes back a block whose entry (r, c) is
  max (a(5000·t + r, c) + b(0, c)) 0. That is entry (5000·t + r, c) of the host's bias + ReLU of the two whole
  arrays, so each written block is the corresponding block of that array; the ten blocks tile the 50000 rows, so the
  output array ends as the whole of it, whatever contents `V` the region is entered from.
-/
import proofs.«122089_j43258910605759_1_alg».proof.Proof.Gen.KernelIdeal.Frame
import proofs.«122089_j43258910605759_1_alg».proof.Proof.ArrayOps

set_option maxRecDepth 16384

noncomputable section

namespace Cert.KernelIdeal.BiasRelu1

open Cert.KernelIdeal Cert.KernelIdeal.Gen Cert.KernelIdeal.Blocks Cert.KernelIdeal.Arrays
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the features' and the output's blocks move together down the rows, point
    `t` at block row `t`; the bias row's block stays at the origin. -/
theorem blocks_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row is some point's. -/
theorem block_of_row : ∀ q : Fin 10, ∃ t : Fin cfg1.N, win1_2.index t = ![q.val, 0] :=
  (by decide +kernel : ∀ q : Fin 10, ∃ t : Fin grid1.N, win1_2.index t = ![q.val, 0])

/-- What point `t` writes back is block `t` of the whole bias + ReLU array. -/
theorem flushed_eq (c : Dev nD) (t : Fin cfg1.N) :
    (dat1 V c).flushed 2 t = ((cfg1.win 2).blk t).view.read (Elt Ideal) (biasReluRow (V c main_v48) (V c main_v49)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := blocks_at t
  funext j
  show k1_pay1 (iblk1 V c 0 t) (iblk1 V c 1 t) j = biasReluRow (V c main_v48) (V c main_v49) (((cfg1.win 2).blk t).view.emb j)
  refine (biasRelu1_at (iblk1 V c 0 t) (iblk1 V c 1 t) j).trans ?_
  refine Eq.trans ?_ (biasReluRow_at (V c main_v48) (V c main_v49) (((cfg1.win 2).blk t).view.emb j)).symm
  have hx : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hb : ((cfg1.win 1).blk t).view.emb (biasAt j) = biasAt (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  have hl : iblk1 V c 0 t j = V c main_v48 (((cfg1.win 2).blk t).view.emb j) := by
    show V c main_v48 (((cfg1.win 0).blk t).view.emb j) = _
    rw [hx]
  have hr : iblk1 V c 1 t (biasAt j) = V c main_v49 (biasAt (((cfg1.win 2).blk t).view.emb j)) := by
    show V c main_v49 (((cfg1.win 1).blk t).view.emb (biasAt j)) = _
    rw [hb]
  rw [hl, hr]

/-- An entry of the output array lies in point `t`'s block iff each coordinate lies in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- The ten blocks tile the array: row `i` is in the block of point `i / 5000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := block_of_row ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the pallas_call: the whole bias + ReLU of the two arrays the region found. -/
theorem whole (c : Dev nD) : (dat1 V c).arrAt 2 cfg1.N = biasReluRow (V c main_v48) (V c main_v49) :=
  (dat1 V c).arrAt_eq_of_cover 2 (biasReluRow (V c main_v48) (V c main_v49)) (fun t _ => flushed_eq V c t) covered

end Cert.KernelIdeal.BiasRelu1

end
-- ==== Proof.Linear2.lean ====
/-
  The second linear map as ONE array.

  The pallas_call walks ten blocks of 5000 rows. At point `t` it fetches rows 5000·t … 5000·t + 4999 of its left
  operand and the whole weight matrix, and writes back a block whose entry (r, c) is ∑ₖ x(5000·t + r, k) · w(k, c).
  That is row 5000·t + r, column c of the host's product of the two whole arrays, so each written block is the
  corresponding block of that product; the ten blocks tile the 50000 rows (row `i` lies in block `i / 5000`), so
  the output array ends as the whole product, whatever contents `V` the region is entered from.
-/
import proofs.«122089_j43258910605759_1_alg».proof.Proof.Gen.KernelIdeal.Frame
import proofs.«122089_j43258910605759_1_alg».proof.Proof.ArrayOps

set_option maxRecDepth 16384

open scoped BigOperators

noncomputable section

namespace Cert.KernelIdeal.Linear2

open Cert.KernelIdeal Cert.KernelIdeal.Gen Cert.KernelIdeal.Blocks Cert.KernelIdeal.Arrays
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's and the output's blocks move together down the rows,
    point `t` at block row `t`; the weights' block stays at the origin. -/
theorem blocks_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row is some point's. -/
theorem block_of_row : ∀ q : Fin 10, ∃ t : Fin cfg2.N, win2_2.index t = ![q.val, 0] :=
  (by decide +kernel : ∀ q : Fin 10, ∃ t : Fin grid2.N, win2_2.index t = ![q.val, 0])

/-- What point `t` writes back is block `t` of the whole product. -/
theorem flushed_eq (c : Dev nD) (t : Fin cfg2.N) :
    (dat2 V c).flushed 2 t = ((cfg2.win 2).blk t).view.read (Elt Ideal) (dotRows (V c main_v50) (V c main_arg5)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := blocks_at t
  funext j
  show k2_pay1 (iblk2 V c 0 t) (iblk2 V c 1 t) j = dotRows (V c main_v50) (V c main_arg5) (((cfg2.win 2).blk t).view.emb j)
  refine (linear2_at (iblk2 V c 0 t) (iblk2 V c 1 t) j).trans ?_
  refine Eq.trans ?_ (dotRows_at (V c main_v50) (V c main_arg5) (((cfg2.win 2).blk t).view.emb j)).symm
  refine Finset.sum_congr rfl fun k _ => ?_
  have hx : ((cfg2.win 0).blk t).view.emb (inRow j k) = inRow (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : ((cfg2.win 1).blk t).view.emb (inCol j k) = inCol (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have hl : iblk2 V c 0 t (inRow j k) = V c main_v50 (inRow (((cfg2.win 2).blk t).view.emb j) k) := by
    show V c main_v50 (((cfg2.win 0).blk t).view.emb (inRow j k)) = _
    rw [hx]
  have hr : iblk2 V c 1 t (inCol j k) = V c main_arg5 (inCol (((cfg2.win 2).blk t).view.emb j) k) := by
    show V c main_arg5 (((cfg2.win 1).blk t).view.emb (inCol j k)) = _
    rw [hw]
  rw [hl, hr]

/-- An entry of the output array lies in point `t`'s block iff each coordinate lies in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- The ten blocks tile the array: row `i` is in the block of point `i / 5000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := block_of_row ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the pallas_call: the whole product of the two arrays the region found. -/
theorem whole (c : Dev nD) : (dat2 V c).arrAt 2 cfg2.N = dotRows (V c main_v50) (V c main_arg5) :=
  (dat2 V c).arrAt_eq_of_cover 2 (dotRows (V c main_v50) (V c main_arg5)) (fun t _ => flushed_eq V c t) covered

end Cert.KernelIdeal.Linear2

end
-- ==== Proof.BiasRelu3.lean ====
/-
  The second bias + ReLU as ONE array.

  The pallas_call walks ten blocks of 5000 rows. At point `t` it fetches rows 5000·t … 5000·t + 4999 of the
  aggregated features and the bias, held as one row of 128 entries, and writes back a block whose entry (r, c) is
  max (a(5000·t + r, c) + b(0, c)) 0. That is entry (5000·t + r, c) of the host's bias + ReLU of the two whole
  arrays, so each written block is the corresponding block of that array; the ten blocks tile the 50000 rows, so the
  output array ends as the whole of it, whatever contents `V` the region is entered from.
-/
import proofs.«122089_j43258910605759_1_alg».proof.Proof.Gen.KernelIdeal.Frame
import proofs.«122089_j43258910605759_1_alg».proof.Proof.ArrayOps

set_option maxRecDepth 16384

noncomputable section

namespace Cert.KernelIdeal.BiasRelu3

open Cert.KernelIdeal Cert.KernelIdeal.Gen Cert.KernelIdeal.Blocks Cert.KernelIdeal.Arrays
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the features' and the output's blocks move together down the rows, point
    `t` at block row `t`; the bias row's block stays at the origin. -/
theorem blocks_at : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block row is some point's. -/
theorem block_of_row : ∀ q : Fin 10, ∃ t : Fin cfg3.N, win3_2.index t = ![q.val, 0] :=
  (by decide +kernel : ∀ q : Fin 10, ∃ t : Fin grid3.N, win3_2.index t = ![q.val, 0])

/-- What point `t` writes back is block `t` of the whole bias + ReLU array. -/
theorem flushed_eq (c : Dev nD) (t : Fin cfg3.N) :
    (dat3 V c).flushed 2 t = ((cfg3.win 2).blk t).view.read (Elt Ideal) (biasReluRow (V c main_v64) (V c main_v65)) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := blocks_at t
  funext j
  show k3_pay1 (iblk3 V c 0 t) (iblk3 V c 1 t) j = biasReluRow (V c main_v64) (V c main_v65) (((cfg3.win 2).blk t).view.emb j)
  refine (biasRelu3_at (iblk3 V c 0 t) (iblk3 V c 1 t) j).trans ?_
  refine Eq.trans ?_ (biasReluRow_at (V c main_v64) (V c main_v65) (((cfg3.win 2).blk t).view.emb j)).symm
  have hx : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have hb : ((cfg3.win 1).blk t).view.emb (biasAt j) = biasAt (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  have hl : iblk3 V c 0 t j = V c main_v64 (((cfg3.win 2).blk t).view.emb j) := by
    show V c main_v64 (((cfg3.win 0).blk t).view.emb j) = _
    rw [hx]
  have hr : iblk3 V c 1 t (biasAt j) = V c main_v65 (biasAt (((cfg3.win 2).blk t).view.emb j)) := by
    show V c main_v65 (((cfg3.win 1).blk t).view.emb (biasAt j)) = _
    rw [hb]
  rw [hl, hr]

/-- An entry of the output array lies in point `t`'s block iff each coordinate lies in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v66).slice (win3_2.rect t)).set ↔ _
  rw [View.set_slice_whole, Rect.mem_set_unit]
  exact Iff.rfl

/-- The ten blocks tile the array: row `i` is in the block of point `i / 5000`. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := block_of_row ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the pallas_call: the whole bias + ReLU of the two arrays the region found. -/
theorem whole (c : Dev nD) : (dat3 V c).arrAt 2 cfg3.N = biasReluRow (V c main_v64) (V c main_v65) :=
  (dat3 V c).arrAt_eq_of_cover 2 (biasReluRow (V c main_v64) (V c main_v65)) (fun t _ => flushed_eq V c t) covered

end Cert.KernelIdeal.BiasRelu3

end
-- ==== Proof.Flat.lean ====
/-
  The whole program as ONE line of host operations.

  A pallas_call leaves every buffer as it found it except its output array, and (by the four modules on the regions)
  that array ends as a whole-array function of two arrays the region found: the host's product `dotRows` for a linear
  map, the host's bias + ReLU for the other two. So the contents at a region's exit are the contents at its entry
  after ONE host operation writing the output buffer. (For bias + ReLU the kernel reads the bias as one row, made by a
  reshape of the bias vector just before the region; that row is the vector spread by a broadcast, so the operation
  may read the vector itself.) Chaining the eleven boundaries, the last boundary's contents are the launch contents
  after one straight line of host operations: the program's own host stretches with one operation in place of each
  pallas_call.
-/
import proofs.«122089_j43258910605759_1_alg».proof.Proof.Linear0
import proofs.«122089_j43258910605759_1_alg».proof.Proof.BiasRelu1
import proofs.«122089_j43258910605759_1_alg».proof.Proof.Linear2
import proofs.«122089_j43258910605759_1_alg».proof.Proof.BiasRelu3
import Idealize.ShloMosaic.Lib.StableHlo.Run

set_option maxRecDepth 16384

noncomputable section

namespace Cert.KernelIdeal.Flat

open Cert.KernelIdeal Cert.KernelIdeal.Gen Cert.KernelIdeal.Arrays
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## One operation per pallas_call -/

/-- The first linear map: features times the first weight matrix. -/
abbrev opLinear0 : HloOp τ sig (Elt Ideal) := binary main_arg0 main_arg3 main_v35 dotRows
/-- The first bias + ReLU, reading the bias vector. -/
abbrev opBias1 : HloOp τ sig (Elt Ideal) := binary main_v48 main_arg4 main_v50 biasRelu
/-- The second linear map: the first layer's output times the second weight matrix. -/
abbrev opLinear2 : HloOp τ sig (Elt Ideal) := binary main_v50 main_arg5 main_v51 dotRows
/-- The second bias + ReLU, reading the bias vector. -/
abbrev opBias3 : HloOp τ sig (Elt Ideal) := binary main_v64 main_arg6 main_v66 biasRelu

/-- The launch contents after the whole line. -/
def line (V0 : Valuation τ sig (Elt Ideal)) : Valuation τ sig (Elt Ideal) :=
  after [opBias3]
   (after hostOps3
    (after [opBias1, opLinear2]
     (after hostOps1
      (after [opLinear0]
       (after hostOps0_4 (after hostOps0_3 (after hostOps0_2 (after hostOps0_1 (after hostOps0 V0)))))))))

/-! ## Each region's exit is its entry after its operation -/

/-- A pallas_call whose three windows are two inputs and one output, the output ending at `f` of the two inputs as
    found: its exit contents are the entry contents with the output buffer rewritten. Stated once for the pattern
    the four regions share: the arrays' exit contents `A`, the three array references, and what each holds. -/
theorem exit_eq {gr : Nat} {W : Valuation τ sig (Elt Ideal)} {spec : Fin 3 → Pipeline.WinSpec sig gr} {c : Dev nD}
    (A : (w : Fin 3) → Buf (Elt Ideal) ((spec w).arr.view.loc (c.tc : Thread nD τ)))
    (hinj : Function.Injective (Pipeline.arrRef spec)) (op : HloOp τ sig (Elt Ideal)) (out : Ref sig .tc)
    (hout : Pipeline.arrRef spec 2 = out) (hw : op.writes = {Proc.devRef .tc out})
    (hA : ∀ w, A w = op.result W (Proc.devRef .tc (Pipeline.arrRef spec w))) :
    Pipeline.withArrays spec c W A = op.result W := by
  funext b
  by_cases h : ∃ w, Proc.devRef .tc (Pipeline.arrRef spec w) = b
  · obtain ⟨w, rfl⟩ := h
    rw [Pipeline.withArrays_arr spec hinj c W A w]
    exact hA w
  · unfold Pipeline.withArrays
    rw [dif_neg h]
    refine (op.result_of_not_mem W ?_).symm
    rw [hw]
    intro hb
    exact h ⟨2, by rw [hout]; exact (Finset.mem_singleton.mp hb).symm⟩

/-- The first linear map, entered from any contents `Wf c`: its exit contents are those after its one operation. -/
theorem exit0_of (Wf : Dev nD → Valuation τ sig (Elt Ideal)) (c : Dev nD) :
    Pipeline.withArrays spec0 c (Wf c) (fun w => (dat0 (fun c b => Wf c b) c).arrAt w cfg0.N) = opLinear0.result (Wf c) := by
  refine exit_eq (fun w => (dat0 (fun c b => Wf c b) c).arrAt w cfg0.N) launch0.win.arr_inj opLinear0 main_v35 rfl (binary_writes ..) fun w => ?_
  match w with
  | ⟨0, _⟩ =>
    refine Eq.trans ?_ (binary_result_ne' (τ := τ) (a := main_arg0) (b := main_arg3) (y := main_v35) dotRows _ _ _ (Wf c) (r := main_arg0) (by decide)).symm
    exact ((dat0 (fun c b => Wf c b) c).arrAt_in 0 rfl _).trans (A_eq0 (fun c b => Wf c b) c 0)
  | ⟨1, _⟩ =>
    refine Eq.trans ?_ (binary_result_ne' (τ := τ) (a := main_arg0) (b := main_arg3) (y := main_v35) dotRows _ _ _ (Wf c) (r := main_arg3) (by decide)).symm
    exact ((dat0 (fun c b => Wf c b) c).arrAt_in 1 rfl _).trans (A_eq0 (fun c b => Wf c b) c 1)
  | ⟨2, _⟩ =>
    refine Eq.trans ?_ (binary_result' (τ := τ) (a := main_arg0) (b := main_arg3) (y := main_v35) dotRows _ _ _ (Wf c)).symm
    exact Linear0.whole (fun c b => Wf c b) c
  | ⟨n + 3, h⟩ => exact absurd h (by omega)

/-- After the host stretch before the first bias + ReLU, from any contents, the bias row is the bias vector spread as one row. -/
theorem row1_of (U : Valuation τ sig (Elt Ideal)) :
    after hostOps1 U (Proc.devRef .tc main_v49) = rowOf (after hostOps1 U (Proc.devRef .tc main_arg4)) := by
  dsimp only [hostOps1]
  after_results_simp
  exact bias_row _

set_option maxHeartbeats 4000000 in
/-- The first bias + ReLU, entered from any contents `Wf c` in which the bias row is the bias vector spread: its exit
    contents are those after its one operation. -/
theorem exit1_of (Wf : Dev nD → Valuation τ sig (Elt Ideal)) (c : Dev nD)
    (hrow : Wf c (Proc.devRef .tc main_v49) = rowOf (Wf c (Proc.devRef .tc main_arg4))) :
    Pipeline.withArrays spec1 c (Wf c) (fun w => (dat1 (fun c b => Wf c b) c).arrAt w cfg1.N) = opBias1.result (Wf c) := by
  refine exit_eq (fun w => (dat1 (fun c b => Wf c b) c).arrAt w cfg1.N) launch1.win.arr_inj opBias1 main_v50 rfl (binary_writes ..) fun w => ?_
  match w with
  | ⟨0, _⟩ =>
    refine Eq.trans ?_ (binary_result_ne' (τ := τ) (a := main_v48) (b := main_arg4) (y := main_v50) biasRelu _ _ _ (Wf c) (r := main_v48) (by decide)).symm
    exact ((dat1 (fun c b => Wf c b) c).arrAt_in 0 rfl _).trans (A_eq1 (fun c b => Wf c b) c 0)
  | ⟨1, _⟩ =>
    refine Eq.trans ?_ (binary_result_ne' (τ := τ) (a := main_v48) (b := main_arg4) (y := main_v50) biasRelu _ _ _ (Wf c) (r := main_v49) (by decide)).symm
    exact ((dat1 (fun c b => Wf c b) c).arrAt_in 1 rfl _).trans (A_eq1 (fun c b => Wf c b) c 1)
  | ⟨2, _⟩ =>
    refine Eq.trans ?_ (binary_result' (τ := τ) (a := main_v48) (b := main_arg4) (y := main_v50) biasRelu _ _ _ (Wf c)).symm
    have e : biasReluRow (Wf c (Proc.devRef .tc main_v48)) (Wf c (Proc.devRef .tc main_v49))
        = biasRelu (Wf c (Proc.devRef .tc main_v48)) (Wf c (Proc.devRef .tc main_arg4)) := by rw [hrow]
    exact (BiasRelu1.whole (fun c b => Wf c b) c).trans e
  | ⟨n + 3, h⟩ => exact absurd h (by omega)

/-- The second linear map, entered from any contents `Wf c`: its exit contents are those after its one operation. -/
theorem exit2_of (Wf : Dev nD → Valuation τ sig (Elt Ideal)) (c : Dev nD) :
    Pipeline.withArrays spec2 c (Wf c) (fun w => (dat2 (fun c b => Wf c b) c).arrAt w cfg2.N) = opLinear2.result (Wf c) := by
  refine exit_eq (fun w => (dat2 (fun c b => Wf c b) c).arrAt w cfg2.N) launch2.win.arr_inj opLinear2 main_v51 rfl (binary_writes ..) fun w => ?_
  match w with
  | ⟨0, _⟩ =>
    refine Eq.trans ?_ (binary_result_ne' (τ := τ) (a := main_v50) (b := main_arg5) (y := main_v51) dotRows _ _ _ (Wf c) (r := main_v50) (by decide)).symm
    exact ((dat2 (fun c b => Wf c b) c).arrAt_in 0 rfl _).trans (A_eq2 (fun c b => Wf c b) c 0)
  | ⟨1, _⟩ =>
    refine Eq.trans ?_ (binary_result_ne' (τ := τ) (a := main_v50) (b := main_arg5) (y := main_v51) dotRows _ _ _ (Wf c) (r := main_arg5) (by decide)).symm
    exact ((dat2 (fun c b => Wf c b) c).arrAt_in 1 rfl _).trans (A_eq2 (fun c b => Wf c b) c 1)
  | ⟨2, _⟩ =>
    refine Eq.trans ?_ (binary_result' (τ := τ) (a := main_v50) (b := main_arg5) (y := main_v51) dotRows _ _ _ (Wf c)).symm
    exact Linear2.whole (fun c b => Wf c b) c
  | ⟨n + 3, h⟩ => exact absurd h (by omega)

/-- After the host stretch before the second bias + ReLU, from any contents, the bias row is the bias vector spread as one row. -/
theorem row3_of (U : Valuation τ sig (Elt Ideal)) :
    after hostOps3 U (Proc.devRef .tc main_v65) = rowOf (after hostOps3 U (Proc.devRef .tc main_arg6)) := by
  dsimp only [hostOps3]
  after_results_simp
  exact bias_row _

set_option maxHeartbeats 4000000 in
/-- The second bias + ReLU, entered from any contents `Wf c` in which the bias row is the bias vector spread: its exit
    contents are those after its one operation. -/
theorem exit3_of (Wf : Dev nD → Valuation τ sig (Elt Ideal)) (c : Dev nD)
    (hrow : Wf c (Proc.devRef .tc main_v65) = rowOf (Wf c (Proc.devRef .tc main_arg6))) :
    Pipeline.withArrays spec3 c (Wf c) (fun w => (dat3 (fun c b => Wf c b) c).arrAt w cfg3.N) = opBias3.result (Wf c) := by
  refine exit_eq (fun w => (dat3 (fun c b => Wf c b) c).arrAt w cfg3.N) launch3.win.arr_inj opBias3 main_v66 rfl (binary_writes ..) fun w => ?_
  match w with
  | ⟨0, _⟩ =>
    refine Eq.trans ?_ (binary_result_ne' (τ := τ) (a := main_v64) (b := main_arg6) (y := main_v66) biasRelu _ _ _ (Wf c) (r := main_v64) (by decide)).symm
    exact ((dat3 (fun c b => Wf c b) c).arrAt_in 0 rfl _).trans (A_eq3 (fun c b => Wf c b) c 0)
  | ⟨1, _⟩ =>
    refine Eq.trans ?_ (binary_result_ne' (τ := τ) (a := main_v64) (b := main_arg6) (y := main_v66) biasRelu _ _ _ (Wf c) (r := main_v65) (by decide)).symm
    exact ((dat3 (fun c b => Wf c b) c).arrAt_in 1 rfl _).trans (A_eq3 (fun c b => Wf c b) c 1)
  | ⟨2, _⟩ =>
    refine Eq.trans ?_ (binary_result' (τ := τ) (a := main_v64) (b := main_arg6) (y := main_v66) biasRelu _ _ _ (Wf c)).symm
    have e : biasReluRow (Wf c (Proc.devRef .tc main_v64)) (Wf c (Proc.devRef .tc main_v65))
        = biasRelu (Wf c (Proc.devRef .tc main_v64)) (Wf c (Proc.devRef .tc main_arg6)) := by rw [hrow]
    exact (BiasRelu3.whole (fun c b => Wf c b) c).trans e
  | ⟨n + 3, h⟩ => exact absurd h (by omega)

/-! ## The last boundary's contents -/

theorem exit0 (c : Dev nD) : W6 m ρ c = opLinear0.result (W5 m ρ c) := by
  unfold W6; exact exit0_of (W5 m ρ) c
theorem exit1 (c : Dev nD) : W8 m ρ c = opBias1.result (W7 m ρ c) := by
  unfold W8; exact exit1_of (W7 m ρ) c (row1_of (W6 m ρ c))
theorem exit2 (c : Dev nD) : W9 m ρ c = opLinear2.result (W8 m ρ c) := by
  unfold W9; exact exit2_of (W8 m ρ) c
theorem exit3 (c : Dev nD) : W11 m ρ c = opBias3.result (W10 m ρ c) := by
  unfold W11; exact exit3_of (W10 m ρ) c (row3_of (W9 m ρ c))

/-- The contents at the last boundary are the launch contents after the whole line. -/
theorem last_eq (c : Dev nD) : W11 m ρ c = line (W0 m ρ c) := by
  rw [exit3 m ρ c]
  show opBias3.result (after hostOps3 (W9 m ρ c)) = _
  rw [exit2 m ρ c, exit1 m ρ c]
  show opBias3.result (after hostOps3 (opLinear2.result (opBias1.result (after hostOps1 (W6 m ρ c))))) = _
  rw [exit0 m ρ c]
  rfl

end Cert.KernelIdeal.Flat

end
-- ==== Proof.Bridge.lean ====
/-
  The kernel program's line of host operations computes the reference's result.

  After the four pallas_calls have been read as host operations, the kernel program is a straight line: the
  graph normalisation (the degree of each node by a scatter-add of the edge weights with unit self-loops, its inverse
  square root where positive, the coefficient dinv[src] · w · dinv[dst] of each edge), then twice: a product with a
  weight matrix, a gather of the source rows, a scaling by the edge coefficients, a scatter-add at the destination
  rows, and bias + ReLU. The reference is the same line, except that it computes the normalisation once per layer
  instead of once; as a composed term of the seven arguments that makes no difference. So the value the line leaves
  in the result buffer and the reference's result term are the same term, operation for operation, once both are
  written out over arguments that agree.

  The two calls of `where` in the normalisation are spelt here with plain operations (a convert, a broadcast, a
  select): the same three operations as in the program's text.
-/
import proofs.«122089_j43258910605759_1_alg».proof.Proof.Flat
import proofs.«122089_j43258910605759_1_alg».proof.Proof.Gen.ReferenceIdeal.Run

noncomputable section

namespace Cert.KernelIdeal.Bridge

open Cert.KernelIdeal Cert.KernelIdeal.Gen Cert.KernelIdeal.Arrays Cert.KernelIdeal.Flat
open Idealize.ShloMosaic Idealize.ShloMosaic.TcCoe Idealize.SL.Sem Idealize.ShloMosaic.StableHlo

/-- `where(deg > 0, deg, 1)`: the scalar converted, spread over the nodes, and selected against. -/
abbrev whereDeg : List (HloOp τ sig (Elt Ideal)) :=
  [ StableHlo.unary main_cst_3 main_call0_v0 (id : (⟨S_, .f32⟩ : BufTy).Contents (Elt Ideal) → (⟨S_, .f32⟩ : BufTy).Contents (Elt Ideal)),
    StableHlo.unary main_call0_v0 main_call0_v1 (broadcastInDim S50000 ![] Facts₀.bcast_S_S50000 : (⟨S_, .f32⟩ : BufTy).Contents (Elt Ideal) → (⟨S50000, .f32⟩ : BufTy).Contents (Elt Ideal)),
    StableHlo.ternary main_v15 main_v11 main_call0_v1 main_v16 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ]
/-- `where(deg > 0, rsqrt(…), 0)`, likewise. -/
abbrev whereInv : List (HloOp τ sig (Elt Ideal)) :=
  [ StableHlo.unary main_cst_4 main_call1_v0 (id : (⟨S_, .f32⟩ : BufTy).Contents (Elt Ideal) → (⟨S_, .f32⟩ : BufTy).Contents (Elt Ideal)),
    StableHlo.unary main_call1_v0 main_call1_v1 (broadcastInDim S50000 ![] Facts₀.bcast_S_S50000 : (⟨S_, .f32⟩ : BufTy).Contents (Elt Ideal) → (⟨S50000, .f32⟩ : BufTy).Contents (Elt Ideal)),
    StableHlo.ternary main_v13 main_v17 main_call1_v1 main_v18 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ]

theorem whereDeg_eq : (hostOps0_1 : List (HloOp τ sig (Elt Ideal))) = whereDeg := rfl
theorem whereInv_eq : (hostOps0_3 : List (HloOp τ sig (Elt Ideal))) = whereInv := rfl

set_option maxRecDepth 8192 in
set_option maxHeartbeats 8000000 in
/-- From contents `V0` that hold, at the seven argument buffers, what the reference's memory `m'` holds at its
    arguments, the line leaves in the result buffer the reference's result term. -/
theorem result_eq (V0 : Valuation τ sig (Elt Ideal))
    (m' : (ℓ : Loc Cert.ReferenceIdeal.nD Cert.ReferenceIdeal.τ Cert.ReferenceIdeal.sig) → Buf (Elt Ideal) ℓ) (c : Dev Cert.ReferenceIdeal.nD)
    (h0 : m' ((c.tc : Thread Cert.ReferenceIdeal.nD Cert.ReferenceIdeal.τ).loc Cert.ReferenceIdeal.main_arg0) = V0 (Proc.devRef .tc main_arg0))
    (h1 : m' ((c.tc : Thread Cert.ReferenceIdeal.nD Cert.ReferenceIdeal.τ).loc Cert.ReferenceIdeal.main_arg1) = V0 (Proc.devRef .tc main_arg1))
    (h2 : m' ((c.tc : Thread Cert.ReferenceIdeal.nD Cert.ReferenceIdeal.τ).loc Cert.ReferenceIdeal.main_arg2) = V0 (Proc.devRef .tc main_arg2))
    (h3 : m' ((c.tc : Thread Cert.ReferenceIdeal.nD Cert.ReferenceIdeal.τ).loc Cert.ReferenceIdeal.main_arg3) = V0 (Proc.devRef .tc main_arg3))
    (h4 : m' ((c.tc : Thread Cert.ReferenceIdeal.nD Cert.ReferenceIdeal.τ).loc Cert.ReferenceIdeal.main_arg4) = V0 (Proc.devRef .tc main_arg4))
    (h5 : m' ((c.tc : Thread Cert.ReferenceIdeal.nD Cert.ReferenceIdeal.τ).loc Cert.ReferenceIdeal.main_arg5) = V0 (Proc.devRef .tc main_arg5))
    (h6 : m' ((c.tc : Thread Cert.ReferenceIdeal.nD Cert.ReferenceIdeal.τ).loc Cert.ReferenceIdeal.main_arg6) = V0 (Proc.devRef .tc main_arg6)) :
    Cert.ReferenceIdeal.Value.res_main_v101 (F := Ideal) m' c = line V0 (Proc.devRef .tc main_v66) := by
  unfold Cert.ReferenceIdeal.Value.res_main_v101
  rw [h0, h1, h2, h3, h4, h5, h6]
  symm
  unfold line
  rw [whereDeg_eq, whereInv_eq]
  dsimp only [hostOps0, whereDeg, hostOps0_2, whereInv, hostOps0_4, hostOps1, hostOps3, opLinear0, opBias1, opLinear2, opBias3]
  after_results_simp
  rfl

end Cert.KernelIdeal.Bridge

end
-- ==== Proof.lean ====
/-
  A two-layer graph convolution, its kernel program against its reference.

  Both programs take node features `x` (50000 × 128), 600000 directed edges with weights, and per layer a weight
  matrix and a bias. Every node gets a self-loop of weight 1; `deg` is the sum of the weights of the edges arriving at
  a node, `dinv` its inverse square root where `deg` is positive and 0 elsewhere, and each edge gets the coefficient
  dinv[src] · w · dinv[dst]. A layer maps features `h` to  relu (A · (h W) + b): the product with the weight matrix,
  then for every edge the source row scaled by the edge's coefficient and added into the destination row, then the
  bias and the maximum with zero. The reference does all of it with host operations; the kernel program does the two
  products and the two bias + ReLU steps in pallas_calls over ten blocks of 5000 rows, and everything else with the
  same host operations.

  Over the extended reals a change of float format is the identity, the matrix unit's product into a zero accumulator
  is the host's product, and the two programs add the bias and take the maximum with the same operations; no law of
  arithmetic is needed beyond that, so the precondition is never opened. The proof reads each pallas_call as one
  whole-array operation (Linear0, BiasRelu1, Linear2, BiasRelu3, over BlockOps and ArrayOps), chains the program's
  segments into one line of host operations from the launch memory (Flat), runs the program keeping its result
  (KernelRun), and observes that the line's result term is the reference's (Bridge).
-/
import proofs.«122089_j43258910605759_1_alg».proof.Defs
import proofs.«122089_j43258910605759_1_alg».proof.Proof.Gen.Kernel
import proofs.«122089_j43258910605759_1_alg».proof.Proof.Gen.Kernel.Frame
import proofs.«122089_j43258910605759_1_alg».proof.Proof.Gen.KernelIdeal
import proofs.«122089_j43258910605759_1_alg».proof.Proof.Gen.KernelIdeal.Frame
import proofs.«122089_j43258910605759_1_alg».proof.Proof.Gen.ReferenceIdeal
import proofs.«122089_j43258910605759_1_alg».proof.Proof.Gen.ReferenceIdeal.Run
import proofs.«122089_j43258910605759_1_alg».proof.Proof.Gen.ReferenceIdeal.Read
import proofs.«122089_j43258910605759_1_alg».proof.Proof.Gen.Pre_finite_inputs
import proofs.«122089_j43258910605759_1_alg».proof.Proof.KernelRun
import proofs.«122089_j43258910605759_1_alg».proof.Proof.Flat
import proofs.«122089_j43258910605759_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is a line of host operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both programs end with the same array: the kernel program's
    result buffer holds the last boundary's contents, those are the launch contents after the program's line of host
    operations, and that line's result term is the reference's. -/
theorem algebraic : Cert.algebraic_KernelIdeal_ReferenceIdeal := by
  intro m ρ m' ρ' _ hagree
  refine ⟨fun c => Cert.KernelIdeal.Gen.W11 m ρ c (Proc.devRef .tc Cert.KernelIdeal.main_v66), Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  beta_reduce
  rw [Cert.KernelIdeal.Flat.last_eq m ρ c]
  exact Cert.KernelIdeal.Bridge.result_eq (Cert.KernelIdeal.Gen.W0 m ρ c) m' c
    (hagree c).1 (hagree c).2.1 (hagree c).2.2.1 (hagree c).2.2.2.1 (hagree c).2.2.2.2.1 (hagree c).2.2.2.2.2.1 (hagree c).2.2.2.2.2.2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
